-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.sign_bit.Statement Cert.KernelIdeal.S2048x256 .f32
  ∧ IdealRules.sign_bit.Statement Cert.KernelIdeal.S512x2048 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x2048 : Shape := ⟨3, ![4, 4096, 2048]⟩
abbrev S2048x2048 : Shape := ⟨2, ![2048, 2048]⟩
abbrev S2048 : Shape := ⟨1, ![2048]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S4x4096x2048 .f32) (main_arg1 : FVec F S2048x2048 .f32) (main_arg2 : FVec F S2048 .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Kernel.lean ====
abbrev S4x4096x2048 : Shape := ⟨3, ![4, 4096, 2048]⟩
abbrev S2048x2048 : Shape := ⟨2, ![2048, 2048]⟩
abbrev S2048 : Shape := ⟨1, ![2048]⟩
abbrev S1x2048 : Shape := ⟨2, ![1, 2048]⟩
abbrev S256x2048 : Shape := ⟨2, ![256, 2048]⟩
abbrev S2048x256 : Shape := ⟨2, ![2048, 256]⟩
abbrev S1x256 : Shape := ⟨2, ![1, 256]⟩
abbrev S256 : Shape := ⟨1, ![256]⟩
abbrev S16384x2048 : Shape := ⟨2, ![16384, 2048]⟩
abbrev S512x2048 : Shape := ⟨2, ![512, 2048]⟩

abbrev nBuf : Space → Nat
  | .hbm => 9
  | .vmem => 13
  | .smem => 0
  | _ => 0

abbrev bufTy : (tb : Table) → Fin (tcTables nBuf tb) → BufTy
  | .hbm, ⟨0, _⟩ => ⟨S4x4096x2048, .f32⟩
  | .hbm, ⟨1, _⟩ => ⟨S2048x2048, .f32⟩
  | .hbm, ⟨2, _⟩ => ⟨S2048, .f32⟩
  | .hbm, ⟨3, _⟩ => ⟨S2048x2048, .bf16⟩
  | .hbm, ⟨4, _⟩ => ⟨S1x2048, .f32⟩
  | .hbm, ⟨5, _⟩ => ⟨S16384x2048, .f32⟩
  | .hbm, ⟨6, _⟩ => ⟨S1x2048, .f32⟩
  | .hbm, ⟨7, _⟩ => ⟨S16384x2048, .f32⟩
  | .hbm, ⟨8, _⟩ => ⟨S4x4096x2048, .f32⟩
  | .local _ .vmem, ⟨0, _⟩ => ⟨S256x2048, .f32⟩
  | .local _ .vmem, ⟨1, _⟩ => ⟨S256x2048, .f32⟩
  | .local _ .vmem, ⟨2, _⟩ => ⟨S2048x256, .bf16⟩
  | .local _ .vmem, ⟨3, _⟩ => ⟨S2048x256, .bf16⟩
  | .local _ .vmem, ⟨4, _⟩ => ⟨S1x256, .f32⟩
  | .local _ .vmem, ⟨5, _⟩ => ⟨S1x256, .f32⟩
  | .local _ .vmem, ⟨6, _⟩ => ⟨S512x2048, .f32⟩
  | .local _ .vmem, ⟨7, _⟩ => ⟨S512x2048, .f32⟩
  | .local _ .vmem, ⟨8, _⟩ => ⟨S2048x2048, .bf16⟩
  | .local _ .vmem, ⟨9, _⟩ => ⟨S1x2048, .f32⟩
  | .local _ .vmem, ⟨10, _⟩ => ⟨S1x2048, .f32⟩
  | .local _ .vmem, ⟨11, _⟩ => ⟨S512x2048, .f32⟩
  | .local _ .vmem, ⟨12, _⟩ => ⟨S512x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem4_1 : DmaSem sig := 12

abbrev nD : Nat := 1
abbrev τ : Topo := Topo.v7x

variable {F : FTy → Type} [BitOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S512x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  inb_S256x2048_S256x2048_0_0 : ∀ a, (![0, 0] : Fin 2 → Nat) a + S256x2048.size a ≤ S256x2048.size a
  h_S256x2048 : 0 < S256x2048.numel
  transposes_S256x2048_p1_0_S2048x256 : S256x2048.Transposes [1, 0] S2048x256
  reduces_S2048x256_S256 : S2048x256.Reduces [0] S256
  shapeCasts_S256_S1x256 : S256.ShapeCasts S1x256
  broadcasts_S1x256_S2048x256 : S1x256.Broadcasts S2048x256
  natLt_1_32 : 1 < 32
  bitsLt_bf16_f32 : FTy.bits .bf16 < FTy.bits .f32
  inb_S2048x256_S2048x256_0_0 : ∀ a, (![0, 0] : Fin 2 → Nat) a + S2048x256.size a ≤ S2048x256.size a
  h_S2048x256 : 0 < S2048x256.numel
  packedbf16_S2048x256_S2048x256_0_0 : (Rect.unit (s := S2048x256) ![0, 0] S2048x256.size inb_S2048x256_S2048x256_0_0).PackedRows (EltTy.packing .bf16)
  inb_S1x256_S1x256_0_0 : ∀ a, (![0, 0] : Fin 2 → Nat) a + S1x256.size a ≤ S1x256.size a
  h_S1x256 : 0 < S1x256.numel
  shapeCasts_S4x4096x2048_S16384x2048 : S4x4096x2048.ShapeCasts S16384x2048
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  shapeCasts_S16384x2048_S4x4096x2048 : S16384x2048.ShapeCasts S4x4096x2048
  dot_S512x2048_S2048x2048_S512x2048_1_0_0_1_n_n_wf : DotDims.WF S512x2048 S2048x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S2048x2048.size a
  hwx0_0 : ∀ i : grid0.Coords, EltTy.bits .f32 = 32 ∨ (Rect.block (s := S2048x2048) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S2048x2048.size a
  hwx0_1 : ∀ i : grid0.Coords, EltTy.bits .bf16 = 32 ∨ (Rect.block (s := S2048x2048) S2048x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x2048.size a
  hwx0_2 : ∀ i : grid0.Coords, EltTy.bits .f32 = 32 ∨ (Rect.block (s := S1x2048) S1x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S16384x2048.size a
  hwx1_0 : ∀ i : grid1.Coords, EltTy.bits .f32 = 32 ∨ (Rect.block (s := S16384x2048) S512x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x2048.size a ≤ S2048x2048.size a
  hwx1_1 : ∀ i : grid1.Coords, EltTy.bits .bf16 = 32 ∨ (Rect.block (s := S2048x2048) S2048x2048.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x2048.size a
  hwx1_2 : ∀ i : grid1.Coords, EltTy.bits .f32 = 32 ∨ (Rect.block (s := S1x2048) S1x2048.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x2048.size a ≤ S1x2048.size a
  hwx1_3 : ∀ i : grid1.Coords, EltTy.bits .f32 = 32 ∨ (Rect.block (s := S1x2048) S1x2048.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x2048.size a ≤ S16384x2048.size a
  hwx1_4 : ∀ i : grid1.Coords, EltTy.bits .f32 = 32 ∨ (Rect.block (s := S16384x2048) S512x2048.size (cc1_transform_4 i) (hinb1_4 i)).WholeWords (EltTy.packing .f32)

variable [Facts₀]

def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf

abbrev win0_0 : Pipeline.Window sig grid0 :=
  Pipeline.Window.ofSpec (Memref.whole main_arg1) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S2048x256.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v1) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_0) S2048x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0_1) S1x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1x2048.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S512x2048.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S4x4096x2048 : Shape := ⟨3, ![4, 4096, 2048]⟩
abbrev S2048x2048 : Shape := ⟨2, ![2048, 2048]⟩
abbrev S2048 : Shape := ⟨1, ![2048]⟩
abbrev S_ : Shape := ⟨0, ![]⟩
abbrev S4x4096 : Shape := ⟨2, ![4, 4096]⟩
abbrev S4x4096x1 : Shape := ⟨3, ![4, 4096, 1]⟩
abbrev S2048x1 : Shape := ⟨2, ![2048, 1]⟩
abbrev S1x1x2048 : Shape := ⟨3, ![1, 1, 2048]⟩

abbrev nBuf : Space → Nat
  | .hbm => 69
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x2048, .f32⟩
  | .hbm, ⟨2, _⟩ => ⟨S2048, .f32⟩
  | .hbm, ⟨3, _⟩ => ⟨S4x4096x2048, .f32⟩
  | .hbm, ⟨4, _⟩ => ⟨S_, .f32⟩
  | .hbm, ⟨5, _⟩ => ⟨S4x4096, .f32⟩
  | .hbm, ⟨6, _⟩ => ⟨S4x4096x1, .f32⟩
  | .hbm, ⟨7, _⟩ => ⟨S_, .f32⟩
  | .hbm, ⟨8, _⟩ => ⟨S4x4096x1, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S4x4096x2048, .f32⟩
  | .hbm, ⟨14, _⟩ => ⟨S4x4096x2048, .i1⟩
  | .hbm, ⟨15, _⟩ => ⟨S_, .f32⟩
  | .hbm, ⟨16, _⟩ => ⟨S4x4096x2048, .f32⟩
  | .hbm, ⟨17, _⟩ => ⟨S4x4096x2048, .f32⟩
  | .hbm, ⟨18, _⟩ => ⟨S4x4096x2048, .f32⟩
  | .hbm, ⟨19, _⟩ => ⟨S4x4096x2048, .f32⟩
  | .hbm, ⟨20, _⟩ => ⟨S4x4096x2048, .f32⟩
  | .hbm, ⟨21, _⟩ => ⟨S_, .f32⟩
  | .hbm, ⟨22, _⟩ => ⟨S2048, .f32⟩
  | .hbm, ⟨23, _⟩ => ⟨S2048x1, .f32⟩
  | .hbm, ⟨24, _⟩ => ⟨S_, .f32⟩
  | .hbm, ⟨25, _⟩ => ⟨S2048x1, .f32⟩
  | .hbm, ⟨26, _⟩ => ⟨S2048x1, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048, .f32⟩
  | .hbm, ⟨32, _⟩ => ⟨S2048x1, .f32⟩
  | .hbm, ⟨33, _⟩ => ⟨S_, .f32⟩
  | .hbm, ⟨34, _⟩ => ⟨S2048x1, .f32⟩
  | .hbm, ⟨35, _⟩ => ⟨S2048x1, .f32⟩
  | .hbm, ⟨36, _⟩ => ⟨S_, .f32⟩
  | .hbm, ⟨37, _⟩ => ⟨S2048x1, .f32⟩
  | .hbm, ⟨38, _⟩ => ⟨S2048x1, .f32⟩
  | .hbm, ⟨39, _⟩ => ⟨S2048x2048, .f32⟩
  | .hbm, ⟨40, _⟩ => ⟨S2048x2048, .i1⟩
  | .hbm, ⟨41, _⟩ => ⟨S_, .f32⟩
  | .hbm, ⟨42, _⟩ => ⟨S2048x2048, .f32⟩
  | .hbm, ⟨43, _⟩ => ⟨S2048x2048, .f32⟩
  | .hbm, ⟨44, _⟩ => ⟨S2048x2048, .f32⟩
  | .hbm, ⟨45, _⟩ => ⟨S_, .f32⟩
  | .hbm, ⟨46, _⟩ => ⟨S2048x2048, .f32⟩
  | .hbm, ⟨47, _⟩ => ⟨S2048x2048, .i1⟩
  | .hbm, ⟨48, _⟩ => ⟨S2048x2048, .f32⟩
  | .hbm, ⟨49, _⟩ => ⟨S2048x2048, .f32⟩
  | .hbm, ⟨50, _⟩ => ⟨S_, .f32⟩
  | .hbm, ⟨51, _⟩ => ⟨S2048, .f32⟩
  | .hbm, ⟨52, _⟩ => ⟨S2048x1, .f32⟩
  | .hbm, ⟨53, _⟩ => ⟨S_, .f32⟩
  | .hbm, ⟨54, _⟩ => ⟨S2048, .f32⟩
  | .hbm, ⟨55, _⟩ => ⟨S2048x1, .f32⟩
  | .hbm, ⟨56, _⟩ => ⟨S_, .f32⟩
  | .hbm, ⟨57, _⟩ => ⟨S_, .f32⟩
  | .hbm, ⟨58, _⟩ => ⟨S2048x1, .f32⟩
  | .hbm, ⟨59, _⟩ => ⟨S2048x1, .f32⟩
  | .hbm, ⟨60, _⟩ => ⟨S2048x1, .f32⟩
  | .hbm, ⟨61, _⟩ => ⟨S2048x2048, .f32⟩
  | .hbm, ⟨62, _⟩ => ⟨S2048x2048, .f32⟩
  | .hbm, ⟨63, _⟩ => ⟨S2048x2048, .f32⟩
  | .hbm, ⟨64, _⟩ => ⟨S2048x2048, .f32⟩
  | .hbm, ⟨65, _⟩ => ⟨S4x4096x2048, .f32⟩
  | .hbm, ⟨66, _⟩ => ⟨S1x1x2048, .f32⟩
  | .hbm, ⟨67, _⟩ => ⟨S4x4096x2048, .f32⟩
  | .hbm, ⟨68, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_8 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_9 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_10 : Ref sig .tc := ⟨.hbm, 50, rfl⟩
abbrev main_v36 : Ref sig .tc := ⟨.hbm, 51, rfl⟩
abbrev main_v37 : Ref sig .tc := ⟨.hbm, 52, rfl⟩
abbrev main_cst_11 : Ref sig .tc := ⟨.hbm, 53, rfl⟩
abbrev main_v38 : Ref sig .tc := ⟨.hbm, 54, rfl⟩
abbrev main_v39 : Ref sig .tc := ⟨.hbm, 55, rfl⟩
abbrev main_cst_12 : Ref sig .tc := ⟨.hbm, 56, rfl⟩
abbrev main_call2_v0 : Ref sig .tc := ⟨.hbm, 57, rfl⟩
abbrev main_call2_v1 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]

class Facts₀ : Prop where
  reducesTo_S4x4096x2048_S4x4096_d2 : S4x4096x2048.ReducesTo [2] S4x4096
  h_S_ : 0 < S_.numel
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  bcast_S4x4096x1_S4x4096x2048_0_1_2 : S4x4096x1.BroadcastsInDim S4x4096x2048 (![0, 1, 2] : Fin 3 → Fin S4x4096x2048.rank)
  bcast_S_S4x4096x2048 : S_.BroadcastsInDim S4x4096x2048 (![] : Fin 0 → Fin S4x4096x2048.rank)
  reducesTo_S2048x2048_S2048_d1 : S2048x2048.ReducesTo [1] S2048
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x2048_0_1 : S2048x1.BroadcastsInDim S2048x2048 (![0, 1] : Fin 2 → Fin S2048x2048.rank)
  bcast_S_S2048x2048 : S_.BroadcastsInDim S2048x2048 (![] : Fin 0 → Fin S2048x2048.rank)
  bcast_S2048_S1x1x2048_2 : S2048.BroadcastsInDim S1x1x2048 (![2] : Fin 1 → Fin S1x1x2048.rank)
  bcast_S1x1x2048_S4x4096x2048_0_1_2 : S1x1x2048.BroadcastsInDim S4x4096x2048 (![0, 1, 2] : Fin 3 → Fin S4x4096x2048.rank)
  dot_S4x4096x2048_S2048x2048_S4x4096x2048_2_1_01_0_n_n_wf : DotDims.WF S4x4096x2048 S2048x2048 S4x4096x2048 [2] [1] [0, 1] [0] [] []

variable [Facts₀]

def dot_S4x4096x2048_S2048x2048_S4x4096x2048_2_1_01_0_n_n : DotDims S4x4096x2048 S2048x2048 S4x4096x2048 where
  lhsContracting := [2]
  rhsContracting := [1]
  lhsNonContracting := [0, 1]
  rhsNonContracting := [0]
  lhsBatch := []
  rhsBatch := []
  wf := dot_S4x4096x2048_S2048x2048_S4x4096x2048_2_1_01_0_n_n_wf

class Facts : Prop extends Facts₀ where

variable [Facts]
-- ==== Proof.HostReads.lean ====
/-
  What the host operations around the two kernel regions do to the arrays.

  Between the regions the activations [4, 4096, 2048] are re-laid as [16384, 2048] and the bias [2048] as [1, 2048];
  neither operation touches the code matrix or the scale row the first region wrote, so the second region finds those
  as the first left them. After the second region its output [16384, 2048] is re-laid as [4, 4096, 2048]: that is the
  program's result.
-/
import proofs.«151585_j16484084483391_2_alg».proof.Proof.FrameWithResult
import Idealize.ShloMosaic.Lib.StableHlo.Run
import Idealize.ShloMosaic.PureOps.Ideal
noncomputable section
namespace Cert.KernelIdeal.HostReads
open Cert.KernelIdeal Cert.KernelIdeal.Gen
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-- The program's result is the second region's output array, re-laid [16384, 2048] → [4, 4096, 2048]. -/
theorem W4_result (c : Dev nD) :
    (W4 (F := Ideal) m ρ c (Proc.devRef .tc main_v4) : S4x4096x2048.Idx → EReal)
      = shapeCast S4x4096x2048 ((dat1 (F := Ideal) (V2 m ρ) c).arrAt 4 cfg1.N : S16384x2048.Idx → EReal) shapeCasts_S16384x2048_S4x4096x2048 := by
  show StableHlo.after hostOps2 (W3 m ρ c) (Proc.devRef .tc main_v4) = _
  after_results
  rw [show W3 m ρ c (Proc.tc.devRef main_v3) = _ from W3_arr m ρ c 4]
  rfl

/-- Region 1 finds the activations re-laid [4,4096,2048] → [16384,2048]. -/
theorem V2_acts (c : Dev nD) :
    (V2 (F := Ideal) m ρ c main_v1 : S16384x2048.Idx → EReal)
      = shapeCast S16384x2048 (m ((c : Thread nD τ).loc main_arg0) : S4x4096x2048.Idx → EReal) shapeCasts_S4x4096x2048_S16384x2048 := by
  show StableHlo.after hostOps1 (W1 m ρ c) (Proc.devRef .tc main_v1) = _
  after_results
  rw [show W1 m ρ c (Proc.tc.devRef main_arg0) = m ((c : Thread nD τ).loc main_arg0) from W1_of_ne m ρ c main_arg0 (by decide)]
  rfl

/-- and the bias re-laid [2048] → [1, 2048]. -/
theorem V2_bias (c : Dev nD) :
    (V2 (F := Ideal) m ρ c main_v2 : S1x2048.Idx → EReal)
      = shapeCast S1x2048 (m ((c : Thread nD τ).loc main_arg2) : S2048.Idx → EReal) shapeCasts_S2048_S1x2048 := by
  show StableHlo.after hostOps1 (W1 m ρ c) (Proc.devRef .tc main_v2) = _
  after_results
  rw [show W1 m ρ c (Proc.tc.devRef main_arg2) = m ((c : Thread nD τ).loc main_arg2) from W1_of_ne m ρ c main_arg2 (by decide)]
  rfl

/-- The code matrix it finds is what the first region's write-backs left in its first output array, -/
theorem V2_code (c : Dev nD) :
    V2 (F := Ideal) m ρ c main_v0_0 = (dat0 (F := Ideal) (V0 m ρ) c).arrAt 1 cfg0.N := by
  show StableHlo.after hostOps1 (W1 m ρ c) (Proc.devRef .tc main_v0_0) = _
  after_results
  exact W1_arr m ρ c 1

/-- and the scale row what they left in its second. -/
theorem V2_alpha (c : Dev nD) :
    V2 (F := Ideal) m ρ c main_v0_1 = (dat0 (F := Ideal) (V0 m ρ) c).arrAt 2 cfg0.N := by
  show StableHlo.after hostOps1 (W1 m ρ c) (Proc.devRef .tc main_v0_1) = _
  after_results
  exact W1_arr m ρ c 2

end Cert.KernelIdeal.HostReads
end
-- ==== Proof.Spec.lean ====
/-
  A linear layer with ternary weights, as mathematics on the extended reals.

  One weight row r (2048 entries) is centred by its mean, its entries are compared in magnitude with
  0.05 times the mean magnitude of the centred row, and the row's CODE is 0 below that threshold and the
  sign of the centred entry otherwise; the row's SCALE alpha is the mean magnitude of the centred entries
  whose code is not 0 (their sum over the larger of 1 and their number). An activation row x is replaced
  by its signs. The layer's result at (activation row, weight row) is the sum over the 2048 positions of
  sign(x) times the scaled code, plus the bias.

  The two programs differ in how they spell this: one multiplies the sum of sign(x)·code by alpha
  afterwards, the other scales each code by alpha first and also writes each operand as a + (b − a). On
  finite entries these agree; the law is outR_eq_outK below.
-/
import Idealize.ShloMosaic.PureOps.Ideal
import Idealize.ShloMosaic.PureOps.Ideal.Laws
import Idealize.ShloMosaic.Lib.ValueIdx

noncomputable section

namespace Cert.Ternary

open Idealize.ShloMosaic
open scoped BigOperators

/-- 2048.0 and 0.05 as the words both programs spell them with. -/
abbrev w2048 : EReal := Ideal.ofBits .f32 0x45000000#32
abbrev w005 : EReal := Ideal.ofBits .f32 0x3D4CCCCD#32

/-- A row of 2048 extended reals. -/
abbrev Row := Fin 2048 → EReal

/-- The mean of a row. -/
def rowMean (r : Row) : EReal := Ideal.div (∑ k, r k) w2048
/-- The row minus its mean. -/
def centred (r : Row) (d : Fin 2048) : EReal := r d - rowMean r
/-- The magnitude of a centred entry. -/
def absC (r : Row) (d : Fin 2048) : EReal := max (centred r d) (-(centred r d))
/-- 0.05 times the mean magnitude of the centred row. -/
def thresh (r : Row) : EReal := w005 * Ideal.div (∑ k, absC r k) w2048
/-- The ternary code of an entry: 0 below the threshold, the centred entry's sign otherwise. -/
def code (r : Row) (d : Fin 2048) : EReal := if absC r d < thresh r then 0 else Ideal.sign (centred r d)
/-- 1 where the code is not 0. -/
def nz (r : Row) (d : Fin 2048) : EReal := if code r d = 0 then 0 else 1
/-- The row's scale: the mean magnitude over the entries whose code is not 0. -/
def alpha (r : Row) : EReal := Ideal.div (∑ k, absC r k * nz r k) (max 1 (∑ k, nz r k))

/-- The result as one program computes it: the signs against the codes, scaled afterwards. -/
def outK (xr r : Row) (b : EReal) : EReal := (∑ k, Ideal.sign (xr k) * code r k) * alpha r + b

/-- The other program's activation: x + (t − x) with t the sign of x unless |x| is below 0 times the row's mean magnitude. -/
def actR (xr : Row) (d : Fin 2048) : EReal :=
  xr d + ((if max (xr d) (-(xr d)) < 0 * Ideal.div (∑ k, max (xr k) (-(xr k))) w2048 then 0 else Ideal.sign (xr d)) - xr d)
/-- Its weight: w + (alpha·code − w). -/
def wgtR (r : Row) (d : Fin 2048) : EReal := r d + (alpha r * code r d - r d)
/-- Its result. -/
def outR (xr r : Row) (b : EReal) : EReal := (∑ k, actR xr k * wgtR r k) + b

/-! ## The constants' values -/

theorem ofBits_one : Ideal.ofBits .f32 0x3F800000#32 = 1 := by
  simp [Ideal.ofBits, Ideal.ieee, -EReal.coe_mul]; norm_num
theorem ofBits_negone : Ideal.ofBits .f32 0xBF800000#32 = -1 := by
  simp [Ideal.ofBits, Ideal.ieee, -EReal.coe_mul]; norm_num
theorem w2048_eq : w2048 = ((2048 : ℝ) : EReal) := by
  simp [w2048, Ideal.ofBits, Ideal.ieee, -EReal.coe_mul]; norm_num

/-! ## Comparisons and selections as conditionals -/

theorem select_olt {α : Type} (a b : EReal) (x y : α) :
    Scalar.select (Ideal.cmp .olt a b) x y = if a < b then x else y := by
  unfold Scalar.select Ideal.cmp
  by_cases h : a < b <;> simp [h]
theorem select_ogt {α : Type} (a b : EReal) (x y : α) :
    Scalar.select (Ideal.cmp .ogt a b) x y = if b < a then x else y := by
  unfold Scalar.select Ideal.cmp
  by_cases h : b < a <;> simp [h]

/-! ## The kernel's two spellings, as the functions above -/

/-- Where the magnitude is positive, −1 below zero and 1 otherwise; the entry itself (zero) where it is not: the sign. -/
theorem ksign_eq (v : EReal) :
    Scalar.select (Ideal.cmp .ogt (max v (-v)) (Ideal.ofBits .f32 0x00000000#32))
      (Scalar.select (Ideal.cmp .olt v (Ideal.ofBits .f32 0x00000000#32)) (Ideal.ofBits .f32 0xBF800000#32) (Ideal.ofBits .f32 0x3F800000#32)) v
    = Ideal.sign v := by
  rw [select_ogt, select_olt, Ideal.ofBits_zero_f32, ofBits_one, ofBits_negone]
  induction v using EReal.rec with
  | bot => simp
  | top => simp
  | coe a =>
    rw [Ideal.sign_coe]
    rcases lt_trichotomy a 0 with h | h | h
    · have h1 : ((a : ℝ) : EReal) < 0 := by exact_mod_cast h
      have h2 : (0 : EReal) < max (a : EReal) (-(a : EReal)) := by
        refine lt_max_of_lt_right ?_
        rw [← EReal.coe_neg]; exact_mod_cast (neg_pos.mpr h)
      rw [if_pos h2, if_pos h1, sign_neg h]; simp
    · subst h; simp
    · have h1 : ¬ ((a : ℝ) : EReal) < 0 := by
        rw [not_lt]; exact_mod_cast h.le
      have h2 : (0 : EReal) < max (a : EReal) (-(a : EReal)) := by
        refine lt_max_of_lt_left ?_
        exact_mod_cast h
      rw [if_pos h2, if_neg h1, sign_pos h]; simp

/-- A comparison bit "not equal to zero", widened and read as a signed integer, is 1 off zero and 0 at zero. -/
theorem knz_eq (c : EReal) :
    ((((Ideal.cmp .one c (Ideal.ofBits .f32 0x00000000#32)).setWidth 32).toInt : ℝ) : EReal) = if c = 0 then 0 else 1 := by
  rw [Ideal.ofBits_zero_f32]
  unfold Ideal.cmp
  by_cases h : c = 0
  · simp [h]
  · simp [h]

/-- The same bit read as an unsigned integer. -/
theorem hnz_eq (c : EReal) :
    (((Ideal.cmp .une c (Ideal.ofBits .f32 0x00000000#32)).toNat : ℝ) : EReal) = if c = 0 then 0 else 1 := by
  rw [Ideal.ofBits_zero_f32]
  unfold Ideal.cmp
  by_cases h : c = 0
  · simp [h]
  · simp [h]

/-! ## The arrays -/

open Idealize.ShloMosaic.ValueIdx in
/-- Row o of a 2048 × 2048 matrix. -/
def rowOf (A : (⟨2, ![2048, 2048]⟩ : Shape).Idx → EReal) (o : Fin 2048) : Row := fun k => A (ix2 o k)

/-- The code matrix, laid out position × weight row: entry (d, o) is the code of row o of the weights at position d. -/
def codeArr (A : (⟨2, ![2048, 2048]⟩ : Shape).Idx → EReal) : (⟨2, ![2048, 2048]⟩ : Shape).Idx → EReal :=
  fun i => code (rowOf A ⟨(i 1).val, (i 1).isLt⟩) ⟨(i 0).val, (i 0).isLt⟩

/-- The scales as one row: entry (0, o) is the scale of row o of the weights. -/
def alphaArr (A : (⟨2, ![2048, 2048]⟩ : Shape).Idx → EReal) : (⟨2, ![1, 2048]⟩ : Shape).Idx → EReal :=
  fun i => alpha (rowOf A ⟨(i 1).val, (i 1).isLt⟩)

open Idealize.ShloMosaic.ValueIdx in
/-- The layer's result over 16384 activation rows: entry (r, o) sums sign(X r k) · C k o over the positions k,
    scales by Al 0 o and adds B 0 o. -/
def outArr (X : (⟨2, ![16384, 2048]⟩ : Shape).Idx → EReal) (C : (⟨2, ![2048, 2048]⟩ : Shape).Idx → EReal)
    (Al B : (⟨2, ![1, 2048]⟩ : Shape).Idx → EReal) : (⟨2, ![16384, 2048]⟩ : Shape).Idx → EReal :=
  fun i => (∑ k : Fin 2048, Ideal.sign (X (ix2 (⟨(i 0).val, (i 0).isLt⟩ : Fin 16384) k)) * C (ix2 k (⟨(i 1).val, (i 1).isLt⟩ : Fin 2048)))
    * Al (ix2 (0 : Fin 1) (⟨(i 1).val, (i 1).isLt⟩ : Fin 2048)) + B (ix2 (0 : Fin 1) (⟨(i 1).val, (i 1).isLt⟩ : Fin 2048))

end Cert.Ternary

end
-- ==== Proof.TernaryTile.lean ====
/-
  One tile of 256 weight rows, as the quantisation step computes it.

  The tile is loaded as a 256 × 2048 block x0 (row p, position k) and transposed once, so every array below is laid
  out position × row. Read at (position d, row p), the step's values are the functions of the specification applied to
  row p of the block: the centred entry, its magnitude, its ternary code; and, read at (0, p), the row's scale.
-/
import proofs.«151585_j16484084483391_2_alg».proof.Proof.Gen.KernelIdeal.Skeleton
import proofs.«151585_j16484084483391_2_alg».proof.Proof.Spec
import Idealize.ShloMosaic.Lib.ValueIdx
import Idealize.ShloMosaic.Lib.ValueLayout
import Idealize.ShloMosaic.PureOps.Ideal.Laws

noncomputable section

namespace Cert.KernelIdeal.TernaryTile

open Cert.KernelIdeal Cert.KernelIdeal.Gen Idealize.ShloMosaic Idealize.ShloMosaic.ValueIdx
open scoped BigOperators

/-- Row p of a 256 × 2048 block. -/
abbrev rowAt (x0 : Vec Ideal S256x2048 .f32) (p : Fin 256) : Cert.Ternary.Row := fun k => x0 (ix2 p k)

/-! ## The layout steps, read at an index -/

/-- The transposed block at (position d, row p) is the block at (p, d). -/
theorem transposed_at (x0 : Vec Ideal S256x2048 .f32) (d : Fin 2048) (p : Fin 256) :
    transpose S2048x256 [1, 0] x0 transposes_S256x2048_p1_0_S2048x256 (ix2 d p) = x0 (ix2 p d) :=
  transpose_ix2_apply x0 transposes_S256x2048_p1_0_S2048x256 d p

/-- A sum over the positions, kept as a one-row array: at (0, p) it is the sum over k of the source at (k, p). -/
theorem colSum_at (src : FVec Ideal S2048x256 .f32) (hφ : FKind.Formats .f32)
    (hacc : (0x00000000#32 : BitVec 32) = 0x00000000#32) (u : Fin 1) (p : Fin 256) :
    shapeCast S1x256 (multiReduction .add [0] S256 src 0x00000000#32 reduces_S2048x256_S256 hφ hacc) shapeCasts_S256_S1x256 (ix2 u p)
      = ∑ k : Fin 2048, src (ix2 k p) := by
  refine (shapeCast_a_1a_apply _ shapeCasts_S256_S1x256 u p).trans ?_
  refine (Ideal.multiReduction_add_single src 0x00000000#32 reduces_S2048x256_S256 hφ hacc (ix1 p)).trans ?_
  refine Finset.sum_congr rfl fun k _ => congrArg src ?_
  funext c; apply Fin.ext
  fin_cases c <;> rfl

/-- A one-row array spread over the positions reads its row entry. -/
theorem spread_at (v : FVec Ideal S1x256 .f32) (d : Fin 2048) (p : Fin 256) :
    broadcastTo S2048x256 v broadcasts_S1x256_S2048x256 (ix2 d p) = v (ix2 (0 : Fin 1) p) :=
  broadcastTo_1b_ab_apply v broadcasts_S1x256_S2048x256 d p

/-! ## The centred entry and its magnitude -/

theorem centred_at (x0 : Vec Ideal S256x2048 .f32) (d : Fin 2048) (p : Fin 256) :
    k0_pay1 (F := Ideal) x0 (ix2 d p) = Cert.Ternary.centred (rowAt x0 p) d := by
  unfold k0_pay1 Cert.Ternary.centred Cert.Ternary.rowMean
  dsimp only
  refine (subf_apply _ _ _).trans ?_
  refine congrArg₂ (fun a b : EReal => a - b) (transposed_at x0 d p) ?_
  refine (spread_at _ d p).trans ?_
  refine congrArg (fun z : EReal => Ideal.div z Cert.Ternary.w2048) ?_
  refine (colSum_at _ _ _ 0 p).trans ?_
  exact Finset.sum_congr rfl fun k _ => transposed_at x0 k p

theorem absC_at (x0 : Vec Ideal S256x2048 .f32) (d : Fin 2048) (p : Fin 256) :
    k0_pay2 (F := Ideal) x0 (ix2 d p) = Cert.Ternary.absC (rowAt x0 p) d := by
  unfold k0_pay2 Cert.Ternary.absC
  exact congrArg (fun z : EReal => max z (-z)) (centred_at x0 d p)

/-! ## The code -/

/-- The step's selection, entry by entry: 0 where the magnitude A is below the threshold T, the sign of the centred
    entry C otherwise. -/
theorem select_code (A T C : EReal) :
    Scalar.select (Ideal.cmp .olt A T) (Ideal.ofBits .f32 0x00000000#32)
      (Scalar.select (Ideal.cmp .ogt (max C (-C)) (Ideal.ofBits .f32 0x00000000#32))
        (Scalar.select (Ideal.cmp .olt C (Ideal.ofBits .f32 0x00000000#32)) (Ideal.ofBits .f32 0xBF800000#32) (Ideal.ofBits .f32 0x3F800000#32)) C)
      = if A < T then 0 else Ideal.sign C := by
  rw [Cert.Ternary.ksign_eq, Cert.Ternary.select_olt, Ideal.ofBits_zero_f32]

/-- The threshold row spread over the positions: 0.05 times the mean magnitude of row p. -/
theorem thresh_at (x0 : Vec Ideal S256x2048 .f32) (hφ : FKind.Formats .f32)
    (hacc : (0x00000000#32 : BitVec 32) = 0x00000000#32) (d : Fin 2048) (p : Fin 256) :
    broadcastTo S2048x256
        (mulf (broadcast S1x256 (FloatOps.ofBits (F := Ideal) .f32 0x3D4CCCCD#32))
          (divf (shapeCast S1x256 (multiReduction .add [0] S256 (k0_pay2 (F := Ideal) x0) 0x00000000#32 reduces_S2048x256_S256 hφ hacc) shapeCasts_S256_S1x256)
            (broadcast S1x256 (FloatOps.ofBits (F := Ideal) .f32 0x45000000#32))))
        broadcasts_S1x256_S2048x256 (ix2 d p)
      = Cert.Ternary.thresh (rowAt x0 p) := by
  unfold Cert.Ternary.thresh
  refine (spread_at _ d p).trans ?_
  refine congrArg (fun z : EReal => Cert.Ternary.w005 * Ideal.div z Cert.Ternary.w2048) ?_
  refine (colSum_at _ _ _ 0 p).trans ?_
  exact Finset.sum_congr rfl fun k _ => absC_at x0 k p

theorem code_at (x0 : Vec Ideal S256x2048 .f32) (d : Fin 2048) (p : Fin 256) :
    k0_pay3 (F := Ideal) x0 (ix2 d p) = Cert.Ternary.code (rowAt x0 p) d := by
  unfold k0_pay3 Cert.Ternary.code
  dsimp only
  refine (select_code (k0_pay2 (F := Ideal) x0 (ix2 d p)) _ (k0_pay1 (F := Ideal) x0 (ix2 d p))).trans ?_
  rw [thresh_at, absC_at, centred_at]

/-- The stored code tile: narrowing the code to the stored format changes nothing on the extended reals. -/
theorem stored_code_at (x0 : Vec Ideal S256x2048 .f32) (d : Fin 2048) (p : Fin 256) :
    k0_pay5 (F := Ideal) x0 (ix2 d p) = Cert.Ternary.code (rowAt x0 p) d := by
  unfold k0_pay5
  exact (truncf_apply (ψ := .bf16) (k0_pay3 (F := Ideal) x0) bitsLt_bf16_f32 (ix2 d p)).trans (code_at x0 d p)

/-! ## The scale -/

/-- The indicator of a nonzero code, as the step spells it: the comparison bit widened and read as a number. -/
theorem nz_at (x0 : Vec Ideal S256x2048 .f32) (k : Fin 2048) (p : Fin 256) :
    (sitofp .f32 (extui 32 (cmpf .one (k0_pay3 (F := Ideal) x0) (broadcast S2048x256 (FloatOps.ofBits (F := Ideal) .f32 0x00000000#32))) natLt_1_32)
        : FVec Ideal S2048x256 .f32) (ix2 k p)
      = Cert.Ternary.nz (rowAt x0 p) k := by
  unfold Cert.Ternary.nz
  refine (Cert.Ternary.knz_eq (k0_pay3 (F := Ideal) x0 (ix2 k p))).trans ?_
  rw [code_at]

theorem alpha_at (x0 : Vec Ideal S256x2048 .f32) (p : Fin 256) :
    k0_pay4 (F := Ideal) x0 (ix2 (0 : Fin 1) p) = Cert.Ternary.alpha (rowAt x0 p) := by
  unfold k0_pay4 Cert.Ternary.alpha
  dsimp only
  refine (divf_apply _ _ _).trans ?_
  refine congrArg₂ (fun a b : EReal => Ideal.div a b) ?_ ?_
  · refine (colSum_at _ _ _ 0 p).trans ?_
    exact Finset.sum_congr rfl fun k _ =>
      (mulf_apply _ _ _).trans (congrArg₂ (fun a b : EReal => a * b) (absC_at x0 k p) (nz_at x0 k p))
  · refine (maximumf_apply _ _ _).trans ?_
    refine congrArg₂ (fun a b : EReal => max a b) Cert.Ternary.ofBits_one ?_
    refine (colSum_at _ _ _ 0 p).trans ?_
    exact Finset.sum_congr rfl fun k _ => nz_at x0 k p

end Cert.KernelIdeal.TernaryTile

end
-- ==== Proof.QuantValue.lean ====
/-
  What the weight-quantisation step leaves in its two output arrays.

  The step runs over 8 tiles of 256 weight rows. Tile t reads rows t·256 … t·256 + 255 of the weights (all 2048
  positions), and writes columns t·256 … t·256 + 255 of the code matrix (laid out position × weight row) and of the
  one-row array of scales. What it writes at (position d, row t·256 + p) is the code of that weight row at d, and at
  (0, t·256 + p) the row's scale; the 8 column blocks tile both arrays, so the arrays end as the whole-array functions
  of the specification.
-/
import proofs.«151585_j16484084483391_2_alg».proof.Proof.Gen.KernelIdeal.Frame
import proofs.«151585_j16484084483391_2_alg».proof.Proof.Spec
import proofs.«151585_j16484084483391_2_alg».proof.Proof.TernaryTile
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.QuantValue

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## Where tile t sits -/

theorem origin_zero : (![0, 0] : Fin 2 → Nat) = fun _ => 0 := funext fun a => by fin_cases a <;> rfl

/-- The block indices of tile t: the weights' block is (t, 0); the code matrix's and the scales' blocks are (0, t). -/
theorem tile_index : ∀ t : Fin cfg0.N,
    win0_0.index t (0 : Fin 2) = t.val ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val :=
  (by decide +kernel : ∀ t : Fin grid0.N, _)

/-- Row p of the weights' block at tile t is row t·256 + p of the weights. -/
theorem tile_row (c : Dev nD) (t : Fin cfg0.N) (p : Fin 256) (o : Fin 2048) (ho : o.val = t.val * 256 + p.val) :
    TernaryTile.rowAt (iblk0 (F := Ideal) V c 0 t) p = Cert.Ternary.rowOf (V c main_arg1) o := by
  funext k
  show V c main_arg1 (((cfg0.win 0).blk t).view.emb (ix2 p k)) = V c main_arg1 (ix2 o k)
  refine congrArg (V c main_arg1) ?_
  obtain ⟨e0, e1, -⟩ := tile_index t
  funext a; apply Fin.ext
  match a with
  | ⟨0, _⟩ => show win0_0.index t (0 : Fin 2) * 256 + 1 * p.val = o.val; omega
  | ⟨1, _⟩ => show win0_0.index t (1 : Fin 2) * 2048 + 1 * k.val = k.val; omega

/-! ## What tile t writes back -/

/-- Tile t writes block t of the code matrix. -/
theorem code_block (c : Dev nD) (t : Fin cfg0.N) :
    (dat0 (F := Ideal) V c).flushed 1 t
      = ((cfg0.win 1).blk t).view.read (Elt Ideal) (Cert.Ternary.codeArr (V c main_arg1)) := by
  show (cfg0.win 1).cut (grid0.coords t) ((dat0 (F := Ideal) V c).after 1 t) = _
  rw [after0_1]
  unfold out0_1
  rw [View.canon_unit_zero origin_zero]
  simp only [View.ld_unit_zero (S := S256x2048) origin_zero]
  funext j
  obtain ⟨d, p, rfl⟩ : ∃ (d : Fin 2048) (p : Fin 256), j = ix2 d p := ⟨j 0, j 1, eq_ix2 j⟩
  show k0_pay5 (F := Ideal) (iblk0 (F := Ideal) V c 0 t) (ix2 d p)
      = Cert.Ternary.codeArr (V c main_arg1) (((cfg0.win 1).blk t).view.emb (ix2 d p))
  refine (TernaryTile.stored_code_at (iblk0 (F := Ideal) V c 0 t) d p).trans ?_
  obtain ⟨-, -, e2, e3, -⟩ := tile_index t
  unfold Cert.Ternary.codeArr
  refine congrArg₂ Cert.Ternary.code (tile_row V c t p _ ?_) (Fin.ext ?_)
  · show win0_1.index t (1 : Fin 2) * 256 + 1 * p.val = t.val * 256 + p.val; omega
  · show d.val = win0_1.index t (0 : Fin 2) * 2048 + 1 * d.val; omega

/-- Tile t writes block t of the row of scales. -/
theorem alpha_block (c : Dev nD) (t : Fin cfg0.N) :
    (dat0 (F := Ideal) V c).flushed 2 t
      = ((cfg0.win 2).blk t).view.read (Elt Ideal) (Cert.Ternary.alphaArr (V c main_arg1)) := by
  show (cfg0.win 2).cut (grid0.coords t) ((dat0 (F := Ideal) V c).after 2 t) = _
  rw [after0_2]
  unfold out0_2
  rw [View.canon_unit_zero origin_zero]
  simp only [View.ld_unit_zero (S := S256x2048) origin_zero]
  funext j
  obtain ⟨u, p, rfl⟩ : ∃ (u : Fin 1) (p : Fin 256), j = ix2 u p := ⟨j 0, j 1, eq_ix2 j⟩
  obtain rfl : u = 0 := Subsingleton.elim _ _
  show k0_pay4 (F := Ideal) (iblk0 (F := Ideal) V c 0 t) (ix2 (0 : Fin 1) p)
      = Cert.Ternary.alphaArr (V c main_arg1) (((cfg0.win 2).blk t).view.emb (ix2 (0 : Fin 1) p))
  refine (TernaryTile.alpha_at (iblk0 (F := Ideal) V c 0 t) p).trans ?_
  obtain ⟨-, -, -, -, e4, e5⟩ := tile_index t
  unfold Cert.Ternary.alphaArr
  refine congrArg Cert.Ternary.alpha (tile_row V c t p _ ?_)
  show win0_2.index t (1 : Fin 2) * 256 + 1 * p.val = t.val * 256 + p.val; omega

/-! ## The blocks tile the arrays -/

/-- An index of the code matrix is in tile t's block iff each coordinate is in the block's range on its axis. -/
theorem mem_code_blk (t : Fin cfg0.N) (i : S2048x2048.Idx) :
    i ∈ ((cfg0.win 1).blk t).view.set ↔ ∀ a : Fin 2, win0_1.index t a * S2048x256.size a ≤ (i a).val ∧ (i a).val < win0_1.index t a * S2048x256.size a + S2048x256.size a := by
  show i ∈ ((View.whole main_v0_0).slice (win0_1.rect t)).set ↔ _
  rw [View.set_slice_whole, Rect.mem_set_unit]
  exact Iff.rfl

/-- The same for the row of scales. -/
theorem mem_alpha_blk (t : Fin cfg0.N) (i : S1x2048.Idx) :
    i ∈ ((cfg0.win 2).blk t).view.set ↔ ∀ a : Fin 2, win0_2.index t a * S1x256.size a ≤ (i a).val ∧ (i a).val < win0_2.index t a * S1x256.size a + S1x256.size a := by
  show i ∈ ((View.whole main_v0_1).slice (win0_2.rect t)).set ↔ _
  rw [View.set_slice_whole, Rect.mem_set_unit]
  exact Iff.rfl

/-- The tile that holds weight row o: o / 256. -/
def tileOf (o : Nat) (ho : o < 2048) : Fin cfg0.N := ⟨o / 256, by show o / 256 < grid0.N; rw [N_0]; omega⟩

/-- Column o of the code matrix is written by tile o / 256. -/
theorem code_cover (i : S2048x2048.Idx) :
    ∃ t : Fin cfg0.N, (cfg0.win 1).flush t = true ∧ i ∈ ((cfg0.win 1).blk t).view.set := by
  have hi0 : (i 0).val < 2048 := (i 0).isLt
  have hi1 : (i 1).val < 2048 := (i 1).isLt
  refine ⟨tileOf (i 1).val hi1, flush0_1 _, ?_⟩
  obtain ⟨-, -, e2, e3, -⟩ := tile_index (tileOf (i 1).val hi1)
  have ht : (tileOf (i 1).val hi1).val = (i 1).val / 256 := rfl
  rw [mem_code_blk]
  intro a
  match a with
  | ⟨0, _⟩ => show win0_1.index (tileOf (i 1).val hi1) (0 : Fin 2) * 2048 ≤ (i 0).val ∧ (i 0).val < win0_1.index (tileOf (i 1).val hi1) (0 : Fin 2) * 2048 + 2048; omega
  | ⟨1, _⟩ => show win0_1.index (tileOf (i 1).val hi1) (1 : Fin 2) * 256 ≤ (i 1).val ∧ (i 1).val < win0_1.index (tileOf (i 1).val hi1) (1 : Fin 2) * 256 + 256; omega

/-- Column o of the row of scales is written by tile o / 256. -/
theorem alpha_cover (i : S1x2048.Idx) :
    ∃ t : Fin cfg0.N, (cfg0.win 2).flush t = true ∧ i ∈ ((cfg0.win 2).blk t).view.set := by
  have hi0 : (i 0).val < 1 := (i 0).isLt
  have hi1 : (i 1).val < 2048 := (i 1).isLt
  refine ⟨tileOf (i 1).val hi1, flush0_2 _, ?_⟩
  obtain ⟨-, -, -, -, e4, e5⟩ := tile_index (tileOf (i 1).val hi1)
  have ht : (tileOf (i 1).val hi1).val = (i 1).val / 256 := rfl
  rw [mem_alpha_blk]
  intro a
  match a with
  | ⟨0, _⟩ => show win0_2.index (tileOf (i 1).val hi1) (0 : Fin 2) * 1 ≤ (i 0).val ∧ (i 0).val < win0_2.index (tileOf (i 1).val hi1) (0 : Fin 2) * 1 + 1; omega
  | ⟨1, _⟩ => show win0_2.index (tileOf (i 1).val hi1) (1 : Fin 2) * 256 ≤ (i 1).val ∧ (i 1).val < win0_2.index (tileOf (i 1).val hi1) (1 : Fin 2) * 256 + 256; omega

/-! ## The arrays after the step -/

theorem code_final (c : Dev nD) :
    (dat0 (F := Ideal) V c).arrAt 1 cfg0.N = Cert.Ternary.codeArr (V c main_arg1) := by
  exact (dat0 (F := Ideal) V c).arrAt_eq_of_cover 1 _ (fun t _ => code_block V c t) code_cover

theorem alpha_final (c : Dev nD) :
    (dat0 (F := Ideal) V c).arrAt 2 cfg0.N = Cert.Ternary.alphaArr (V c main_arg1) := by
  exact (dat0 (F := Ideal) V c).arrAt_eq_of_cover 2 _ (fun t _ => alpha_block V c t) alpha_cover

end Cert.KernelIdeal.QuantValue

end
-- ==== Proof.LinearValue.lean ====
/-
  The sign-matmul region, read as mathematics: what it leaves in its output array.

  The region walks 32 tiles of 512 activation rows. On one tile it replaces each activation entry by its
  sign, multiplies the 512 × 2048 matrix of signs by the whole 2048 × 2048 code matrix (position × weight
  row), scales column o of the product by the o-th scale and adds the o-th bias. Tile t is rows
  512·t … 512·t + 511 of the activations, and is written to the same rows of the output; the code matrix,
  the scales and the bias are read whole at every tile. So entry (r, o) of the output array is

      (∑ k, sign (X (r, k)) · C (k, o)) · Al (0, o) + B (0, o),

  the layer's result Cert.Ternary.outArr. The steps: one tile's result at an entry (tile_apply), each
  tile's operands as entries of the arrays (act_block … bias_block), a tile's write-back as a block of
  the whole result (tile_is_block), every row in some tile (rows_covered), and the array (out_final).
-/
import proofs.«151585_j16484084483391_2_alg».proof.Proof.Gen.KernelIdeal.Frame
import proofs.«151585_j16484084483391_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.LinearValue

open Cert.KernelIdeal Cert.KernelIdeal.Gen Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

/-! ## One tile's result at an entry -/

/-- In the product of a 512 × 2048 matrix by a 2048 × 2048 matrix, the left factor is read at the output's row … -/
theorem lhs_row (i : S512x2048.Idx) (q : dot_S512x2048_S2048x2048_S512x2048_1_0_0_1_n_n.contr.Idx) :
    (dot_S512x2048_S2048x2048_S512x2048_1_0_0_1_n_n.lhsIdx i q 0).val = (i 0).val := by
  unfold DotDims.lhsIdx
  rw [dif_neg (show ¬(0 : Fin S512x2048.rank) ∈ dot_S512x2048_S2048x2048_S512x2048_1_0_0_1_n_n.lhsBatch by decide), dif_pos (show (0 : Fin S512x2048.rank) ∈ dot_S512x2048_S2048x2048_S512x2048_1_0_0_1_n_n.lhsNonContracting by decide)]
  rfl
/-- … and at the summed position, -/
theorem lhs_pos (i : S512x2048.Idx) (q : dot_S512x2048_S2048x2048_S512x2048_1_0_0_1_n_n.contr.Idx) :
    (dot_S512x2048_S2048x2048_S512x2048_1_0_0_1_n_n.lhsIdx i q 1).val = (q ⟨0, by decide⟩).val :=
  dot_S512x2048_S2048x2048_S512x2048_1_0_0_1_n_n.lhsIdx_val_of_single rfl i q
/-- the right factor at the summed position … -/
theorem rhs_pos (i : S512x2048.Idx) (q : dot_S512x2048_S2048x2048_S512x2048_1_0_0_1_n_n.contr.Idx) :
    (dot_S512x2048_S2048x2048_S512x2048_1_0_0_1_n_n.rhsIdx i q 0).val = (q ⟨0, by decide⟩).val :=
  dot_S512x2048_S2048x2048_S512x2048_1_0_0_1_n_n.rhsIdx_val_of_single rfl i q
/-- … and at the output's column. -/
theorem rhs_col (i : S512x2048.Idx) (q : dot_S512x2048_S2048x2048_S512x2048_1_0_0_1_n_n.contr.Idx) :
    (dot_S512x2048_S2048x2048_S512x2048_1_0_0_1_n_n.rhsIdx i q 1).val = (i 1).val := by
  unfold DotDims.rhsIdx
  rw [dif_neg (show ¬(1 : Fin S2048x2048.rank) ∈ dot_S512x2048_S2048x2048_S512x2048_1_0_0_1_n_n.rhsBatch by decide), dif_pos (show (1 : Fin S2048x2048.rank) ∈ dot_S512x2048_S2048x2048_S512x2048_1_0_0_1_n_n.rhsNonContracting by decide)]
  rfl

/-- The matrix product into a zero accumulator, at entry (r, o): the sum over the 2048 positions k of
    a (r, k) · b (k, o). -/
theorem product_apply (a : FVec Ideal S512x2048 .bf16) (b : FVec Ideal S2048x2048 .bf16) (r : Fin 512) (o : Fin 2048) :
    matmul dot_S512x2048_S2048x2048_S512x2048_1_0_0_1_n_n none a b (constant S512x2048 .f32 0x00000000#32) (ix2 r o)
      = ∑ k : Fin 2048, a (ix2 r k) * b (ix2 k o) := by
  refine (Ideal.matmul_constant_zero_apply dot_S512x2048_S2048x2048_S512x2048_1_0_0_1_n_n none a b (ix2 r o)).trans ?_
  rw [← Equiv.sum_comp (ValueIdx.contrEquiv1 dot_S512x2048_S2048x2048_S512x2048_1_0_0_1_n_n 2048 rfl rfl).symm]
  refine Finset.sum_congr rfl fun k _ => ?_
  have hk := ValueIdx.contrEquiv1_symm_val dot_S512x2048_S2048x2048_S512x2048_1_0_0_1_n_n 2048 rfl rfl k
  have el : dot_S512x2048_S2048x2048_S512x2048_1_0_0_1_n_n.lhsIdx (ix2 r o) ((ValueIdx.contrEquiv1 dot_S512x2048_S2048x2048_S512x2048_1_0_0_1_n_n 2048 rfl rfl).symm k) = ix2 r k := funext fun a => Fin.ext (by
    match a with
    | ⟨0, _⟩ => exact lhs_row _ _
    | ⟨1, _⟩ => exact (lhs_pos _ _).trans hk)
  have er : dot_S512x2048_S2048x2048_S512x2048_1_0_0_1_n_n.rhsIdx (ix2 r o) ((ValueIdx.contrEquiv1 dot_S512x2048_S2048x2048_S512x2048_1_0_0_1_n_n 2048 rfl rfl).symm k) = ix2 k o := funext fun a => Fin.ext (by
    match a with
    | ⟨0, _⟩ => exact (rhs_pos _ _).trans hk
    | ⟨1, _⟩ => exact rhs_col _ _)
  rw [el, er]

/-- One tile's result at entry (r, o), from its four operands: the activations' signs along row r against
    column o of the codes, times the o-th scale, plus the o-th bias. The sign is spelled as a selection
    (−1 or 1 by the entry's order with zero where its magnitude is positive, the entry itself where it is
    zero); narrowing the signs to sixteen bits changes no extended real; the scale and bias rows are
    repeated down the 512 rows. -/
theorem tile_apply (x0 : Vec Ideal S512x2048 .f32) (x1 : Vec Ideal S2048x2048 .bf16) (x2 x3 : Vec Ideal S1x2048 .f32)
    (r : Fin 512) (o : Fin 2048) :
    k1_pay1 (F := Ideal) x0 x1 x2 x3 (ix2 r o)
      = (∑ k : Fin 2048, Ideal.sign (x0 (ix2 r k)) * x1 (ix2 k o)) * x2 (ix2 (0 : Fin 1) o) + x3 (ix2 (0 : Fin 1) o) := by
  unfold k1_pay1
  simp only [shapeCast_self]
  rw [addf_apply, mulf_apply, broadcastTo_1b_ab_apply, broadcastTo_1b_ab_apply, product_apply]
  refine congrArg (fun s => s * x2 (ix2 (0 : Fin 1) o) + x3 (ix2 (0 : Fin 1) o)) ?_
  refine Finset.sum_congr rfl fun k _ => ?_
  exact congrArg (· * x1 (ix2 k o)) (Ideal.jnp_sign_eq_sign_f32 (x0 (ix2 r k)))

/-! ## The tiles' operands as entries of the arrays -/

theorem offsets_zero : (![0, 0] : Fin 2 → Nat) = fun _ => 0 := funext fun a => by fin_cases a <;> rfl

/-- Where each operand's block sits at tile t: the activations' and the output's at block row t, the
    codes', the scales' and the bias's at block (0, 0). Decided over the 32 tiles. -/
theorem block_indices : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Entry (r, k) of tile t's activation block is entry (512·t + r, k) of the activations. -/
theorem act_block (c : Dev nD) (t : Fin cfg1.N) (y : S512x2048.Idx) (i : S16384x2048.Idx)
    (h0 : (i 0).val = t.val * 512 + (y 0).val) (h1 : (i 1).val = (y 1).val) :
    iblk1 (F := Ideal) V c 0 t y = V c main_v1 i := by
  obtain ⟨e0, e1, -⟩ := block_indices t
  show V c main_v1 (((cfg1.win 0).blk t).view.emb y) = V c main_v1 i
  refine congrArg (V c main_v1) (funext fun a => Fin.ext ?_)
  match a with
  | ⟨0, _⟩ => show win1_0.index t (0 : Fin 2) * 512 + 1 * (y 0).val = (i 0).val; omega
  | ⟨1, _⟩ => show win1_0.index t (1 : Fin 2) * 2048 + 1 * (y 1).val = (i 1).val; omega

/-- Every tile reads the whole code matrix, -/
theorem code_block (c : Dev nD) (t : Fin cfg1.N) (y : S2048x2048.Idx) :
    iblk1 (F := Ideal) V c 1 t y = V c main_v0_0 y := by
  obtain ⟨-, -, e0, e1, -⟩ := block_indices t
  show V c main_v0_0 (((cfg1.win 1).blk t).view.emb y) = V c main_v0_0 y
  refine congrArg (V c main_v0_0) (funext fun a => Fin.ext ?_)
  match a with
  | ⟨0, _⟩ => show win1_1.index t (0 : Fin 2) * 2048 + 1 * (y 0).val = (y 0).val; omega
  | ⟨1, _⟩ => show win1_1.index t (1 : Fin 2) * 2048 + 1 * (y 1).val = (y 1).val; omega

/-- the whole row of scales, -/
theorem scale_block (c : Dev nD) (t : Fin cfg1.N) (y : S1x2048.Idx) :
    iblk1 (F := Ideal) V c 2 t y = V c main_v0_1 y := by
  obtain ⟨-, -, -, -, e0, e1, -⟩ := block_indices t
  show V c main_v0_1 (((cfg1.win 2).blk t).view.emb y) = V c main_v0_1 y
  refine congrArg (V c main_v0_1) (funext fun a => Fin.ext ?_)
  match a with
  | ⟨0, _⟩ => show win1_2.index t (0 : Fin 2) * 1 + 1 * (y 0).val = (y 0).val; omega
  | ⟨1, _⟩ => show win1_2.index t (1 : Fin 2) * 2048 + 1 * (y 1).val = (y 1).val; omega

/-- and the whole bias row. -/
theorem bias_block (c : Dev nD) (t : Fin cfg1.N) (y : S1x2048.Idx) :
    iblk1 (F := Ideal) V c 3 t y = V c main_v2 y := by
  obtain ⟨-, -, -, -, -, -, e0, e1, -⟩ := block_indices t
  show V c main_v2 (((cfg1.win 3).blk t).view.emb y) = V c main_v2 y
  refine congrArg (V c main_v2) (funext fun a => Fin.ext ?_)
  match a with
  | ⟨0, _⟩ => show win1_3.index t (0 : Fin 2) * 1 + 1 * (y 0).val = (y 0).val; omega
  | ⟨1, _⟩ => show win1_3.index t (1 : Fin 2) * 2048 + 1 * (y 1).val = (y 1).val; omega

/-! ## From the tiles to the array -/

/-- The layer's result at an index whose coordinates are R and o. -/
theorem outArr_at (X : S16384x2048.Idx → EReal) (C : S2048x2048.Idx → EReal) (Al B : S1x2048.Idx → EReal)
    (i : S16384x2048.Idx) (R : Fin 16384) (o : Fin 2048) (h0 : (i 0).val = R.val) (h1 : (i 1).val = o.val) :
    Cert.Ternary.outArr X C Al B i
      = (∑ k : Fin 2048, Ideal.sign (X (ix2 R k)) * C (ix2 k o)) * Al (ix2 (0 : Fin 1) o) + B (ix2 (0 : Fin 1) o) := by
  have hi : i = ix2 R o := funext fun a => Fin.ext (by
    match a with
    | ⟨0, _⟩ => exact h0
    | ⟨1, _⟩ => exact h1)
  subst hi
  rfl

/-- What tile t writes back is rows 512·t … 512·t + 511 of the layer's result on the arrays as the region
    finds them: entry (r, o) of the tile is the result at (512·t + r, o), operand by operand. -/
theorem tile_is_block (c : Dev nD) (t : Fin cfg1.N) :
    (dat1 (F := Ideal) V c).flushed 4 t
      = ((cfg1.win 4).blk t).view.read (Elt Ideal) (Cert.Ternary.outArr (V c main_v1) (V c main_v0_0) (V c main_v0_1) (V c main_v2)) := by
  show (cfg1.win 4).cut (grid1.coords t) ((dat1 V c).after 4 t) = _
  rw [after1_4]
  unfold out1_4
  rw [View.canon_unit_zero offsets_zero]
  simp only [View.ld_unit_zero (S := S512x2048) offsets_zero, View.ld_unit_zero (S := S2048x2048) offsets_zero, View.ld_unit_zero (S := S1x2048) offsets_zero]
  funext j
  obtain ⟨r, o, rfl⟩ : ∃ (r : Fin 512) (o : Fin 2048), j = ix2 r o := ⟨j 0, j 1, eq_ix2 j⟩
  have ht : t.val < 32 := lt_of_lt_of_eq t.isLt (show cfg1.N = 32 from N_1)
  have hR : t.val * 512 + r.val < 16384 := by have := r.isLt; omega
  obtain ⟨-, -, -, -, -, -, -, -, e0, e1⟩ := block_indices t
  show k1_pay1 (iblk1 V c 0 t) (iblk1 V c 1 t) (iblk1 V c 2 t) (iblk1 V c 3 t) (ix2 r o)
    = Cert.Ternary.outArr (V c main_v1) (V c main_v0_0) (V c main_v0_1) (V c main_v2) (((cfg1.win 4).blk t).view.emb (ix2 r o))
  refine (tile_apply (iblk1 V c 0 t) (iblk1 V c 1 t) (iblk1 V c 2 t) (iblk1 V c 3 t) r o).trans ?_
  refine Eq.trans ?_ (outArr_at (V c main_v1) (V c main_v0_0) (V c main_v0_1) (V c main_v2)
    (((cfg1.win 4).blk t).view.emb (ix2 r o)) ⟨t.val * 512 + r.val, hR⟩ o
    (by show win1_4.index t (0 : Fin 2) * 512 + 1 * r.val = t.val * 512 + r.val; omega)
    (by show win1_4.index t (1 : Fin 2) * 2048 + 1 * o.val = o.val; omega)).symm
  refine congrArg₂ (· + ·) (congrArg₂ (· * ·) (Finset.sum_congr rfl fun k _ => congrArg₂ (· * ·) (congrArg Ideal.sign ?_) ?_) ?_) ?_
  · exact act_block V c t (ix2 r k) (ix2 ⟨t.val * 512 + r.val, hR⟩ k) rfl rfl
  · exact code_block V c t (ix2 k o)
  · exact scale_block V c t (ix2 (0 : Fin 1) o)
  · exact bias_block V c t (ix2 (0 : Fin 1) o)

/-- An index of the output array is in tile t's rows iff each coordinate is in the tile's range on its axis. -/
theorem mem_tile (t : Fin cfg1.N) (i : S16384x2048.Idx) :
    i ∈ ((cfg1.win 4).blk t).view.set ↔ ∀ a : Fin 2, win1_4.index t a * S512x2048.size a ≤ (i a).val ∧ (i a).val < win1_4.index t a * S512x2048.size a + S512x2048.size a := by
  show i ∈ ((View.whole main_v3).slice (win1_4.rect t)).set ↔ _
  rw [View.set_slice_whole, Rect.mem_set_unit]
  exact Iff.rfl

/-- Row r of the output lies in tile r / 512, and every tile is written back. -/
theorem rows_covered (i : S16384x2048.Idx) :
    ∃ t : Fin cfg1.N, (cfg1.win 4).flush t = true ∧ i ∈ ((cfg1.win 4).blk t).view.set := by
  have hi0 : (i 0).val < 16384 := (i 0).isLt
  have hi1 : (i 1).val < 2048 := (i 1).isLt
  obtain ⟨t, htv⟩ : ∃ t : Fin cfg1.N, t.val = (i 0).val / 512 :=
    ⟨⟨(i 0).val / 512, by rw [show cfg1.N = 32 from N_1]; omega⟩, rfl⟩
  obtain ⟨-, -, -, -, -, -, -, -, e0, e1⟩ := block_indices t
  refine ⟨t, flush1_4 t, ?_⟩
  rw [mem_tile]
  intro a
  match a with
  | ⟨0, _⟩ => show win1_4.index t (0 : Fin 2) * 512 ≤ (i 0).val ∧ (i 0).val < win1_4.index t (0 : Fin 2) * 512 + 512; omega
  | ⟨1, _⟩ => show win1_4.index t (1 : Fin 2) * 2048 ≤ (i 1).val ∧ (i 1).val < win1_4.index t (1 : Fin 2) * 2048 + 2048; omega

/-- After the 32 tiles the output array is the layer's result on the arrays the region was entered with. -/
theorem out_final (c : Dev nD) :
    (dat1 (F := Ideal) V c).arrAt 4 cfg1.N
      = Cert.Ternary.outArr (V c main_v1) (V c main_v0_0) (V c main_v0_1) (V c main_v2) :=
  (dat1 (F := Ideal) V c).arrAt_eq_of_cover 4 _ (fun t _ => tile_is_block V c t) rows_covered

end Cert.KernelIdeal.LinearValue

end
-- ==== Proof.KernelValue.lean ====
/-
  The kernel program's result at an index.

  The result array [4, 4096, 2048] is the second region's output [16384, 2048] re-laid, so its entry (b, s, o) is the
  output's entry (b·4096 + s, o). That entry sums, over the 2048 positions k, the sign of the activation at row
  b·4096 + s — entry (b, s, k) of the activations, re-laid the other way — times the code of weight row o at k, scales
  the sum by the scale of weight row o and adds the bias at o: the layer's result outK of activation row (b, s), weight
  row o and bias o.
-/
import proofs.«151585_j16484084483391_2_alg».proof.Proof.HostReads
import proofs.«151585_j16484084483391_2_alg».proof.Proof.Spec
import Idealize.ShloMosaic.Lib.Pipeline.Value
import Idealize.ShloMosaic.Lib.ValueIdx
import Idealize.ShloMosaic.Lib.ValueLayout
import Idealize.ShloMosaic.PureOps.Ideal

noncomputable section

namespace Cert.KernelIdeal.KernelValue

open Cert.KernelIdeal Cert.KernelIdeal.Gen Cert.KernelIdeal.HostReads
open Idealize.ShloMosaic Idealize.ShloMosaic.TcCoe Idealize.SL.Sem Idealize.ShloMosaic.ValueIdx
open Idealize.ShloMosaic.Pipeline (Dat)

open Cert.Ternary
open scoped BigOperators

/-! ## The two re-layings between [4, 4096, 2048] and [16384, 2048]

Both keep the row-major position: entry (bb, s, o) of the one is entry (bb · 4096 + s, o) of the other. -/

section layout
variable {α : Type}

/-- A [16384, 2048] array re-laid as [4, 4096, 2048] reads, at (bb, s, o), the operand at (bb · 4096 + s, o). -/
theorem unflatten_apply (y : (⟨2, ![16384, 2048]⟩ : Shape).Idx → α)
    (h : (⟨2, ![16384, 2048]⟩ : Shape).ShapeCasts ⟨3, ![4, 4096, 2048]⟩) (bb : Fin 4) (s : Fin 4096) (o : Fin 2048) :
    shapeCast ⟨3, ![4, 4096, 2048]⟩ y h (ix3 bb s o)
      = y (ix2 (⟨bb.val * 4096 + s.val, by omega⟩ : Fin 16384) o) :=
  shapeCast_apply y h _ _ (by
    rw [Shape.rowMajor_val_two, Shape.rowMajor_val_three]
    show (bb.val * 4096 + s.val) * 2048 + o.val = (bb.val * 4096 + s.val) * 2048 + o.val
    rfl)

/-- A [4, 4096, 2048] array re-laid as [16384, 2048] reads, at (bb · 4096 + s, k), the operand at (bb, s, k). -/
theorem flatten_apply (x : (⟨3, ![4, 4096, 2048]⟩ : Shape).Idx → α)
    (h : (⟨3, ![4, 4096, 2048]⟩ : Shape).ShapeCasts ⟨2, ![16384, 2048]⟩) (bb : Fin 4) (s : Fin 4096) (k : Fin 2048) :
    shapeCast ⟨2, ![16384, 2048]⟩ x h (ix2 (⟨bb.val * 4096 + s.val, by omega⟩ : Fin 16384) k)
      = x (ix3 bb s k) :=
  shapeCast_apply x h _ _ (by
    rw [Shape.rowMajor_val_two, Shape.rowMajor_val_three]
    show (bb.val * 4096 + s.val) * 2048 + k.val = (bb.val * 4096 + s.val) * 2048 + k.val
    rfl)

end layout

/-! ## The specification's arrays at explicit coordinates -/

/-- The layer's result at (r, o). -/
theorem outArr_apply (X : (⟨2, ![16384, 2048]⟩ : Shape).Idx → EReal) (C : (⟨2, ![2048, 2048]⟩ : Shape).Idx → EReal)
    (Al B : (⟨2, ![1, 2048]⟩ : Shape).Idx → EReal) (r : Fin 16384) (o : Fin 2048) :
    outArr X C Al B (ix2 r o)
      = (∑ k : Fin 2048, Ideal.sign (X (ix2 r k)) * C (ix2 k o)) * Al (ix2 (0 : Fin 1) o) + B (ix2 (0 : Fin 1) o) := rfl

/-- The code matrix at (position k, weight row o). -/
theorem codeArr_apply (A : (⟨2, ![2048, 2048]⟩ : Shape).Idx → EReal) (k o : Fin 2048) :
    codeArr A (ix2 k o) = code (fun j => A (ix2 o j)) k := rfl

/-- The scale row at weight row o. -/
theorem alphaArr_apply (A : (⟨2, ![2048, 2048]⟩ : Shape).Idx → EReal) (o : Fin 2048) :
    alphaArr A (ix2 (0 : Fin 1) o) = alpha (fun j => A (ix2 o j)) := rfl

/-! ## The result -/

variable (m : (ℓ : Loc nD τ sig) → Buf (Elt Ideal) ℓ) (ρ : Dev nD → PrngReg)

theorem result_apply
    (hcode : ∀ (V : (c : Dev nD) → (b : Ref sig .tc) → Buf (Elt Ideal) ((c : Thread nD τ).loc b)) (c : Dev nD),
      (dat0 (F := Ideal) V c).arrAt 1 cfg0.N = Cert.Ternary.codeArr (V c main_arg1))
    (halpha : ∀ (V : (c : Dev nD) → (b : Ref sig .tc) → Buf (Elt Ideal) ((c : Thread nD τ).loc b)) (c : Dev nD),
      (dat0 (F := Ideal) V c).arrAt 2 cfg0.N = Cert.Ternary.alphaArr (V c main_arg1))
    (hout : ∀ (V : (c : Dev nD) → (b : Ref sig .tc) → Buf (Elt Ideal) ((c : Thread nD τ).loc b)) (c : Dev nD),
      (dat1 (F := Ideal) V c).arrAt 4 cfg1.N
        = Cert.Ternary.outArr (V c main_v1) (V c main_v0_0) (V c main_v0_1) (V c main_v2))
    (c : Dev nD) (bb : Fin 4) (s : Fin 4096) (o : Fin 2048) :
    (W4 (F := Ideal) m ρ c (Proc.devRef .tc main_v4) : S4x4096x2048.Idx → EReal) (ix3 bb s o)
      = Cert.Ternary.outK (fun k => (m ((c : Thread nD τ).loc main_arg0) : S4x4096x2048.Idx → EReal) (ix3 bb s k))
          (fun k => (m ((c : Thread nD τ).loc main_arg1) : S2048x2048.Idx → EReal) (ix2 o k))
          ((m ((c : Thread nD τ).loc main_arg2) : S2048.Idx → EReal) (ix1 o)) := by
  have hw : (V0 (F := Ideal) m ρ c main_arg1 : S2048x2048.Idx → EReal)
      = (m ((c : Thread nD τ).loc main_arg1) : S2048x2048.Idx → EReal) := rfl
  rw [W4_result, unflatten_apply, hout (V2 m ρ) c, outArr_apply, V2_acts, V2_bias, V2_code, V2_alpha,
    hcode (V0 m ρ) c, halpha (V0 m ρ) c, hw]
  simp only [flatten_apply, shapeCast_a_1a_apply, codeArr_apply, alphaArr_apply]
  rfl

end Cert.KernelIdeal.KernelValue

end
-- ==== Proof.RefValue.lean ====
import proofs.«151585_j16484084483391_2_alg».proof.Proof.Gen.ReferenceIdeal.Read
import proofs.«151585_j16484084483391_2_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Read Idealize.ShloMosaic Idealize.ShloMosaic.ValueIdx

open Cert.Ternary
open scoped BigOperators

/-! ## Where each stage reads its operand

The broadcasts and the sums of the program move an index by dropping, adding or replacing one coordinate.
At explicit coordinates each composite is again an index built from coordinates. -/

/-- The row sums of a matrix, read in the keepdims column (o, 0), run over the entries (o, k). -/
theorem rowSum_idx (o k : Fin 2048) : idx_main_v14 (idx_main_v15 (ix2 o (0 : Fin 1))) k = ix2 o k :=
  funext fun a => Fin.ext (by match a with | ⟨0, _⟩ => rfl | ⟨1, _⟩ => rfl)

/-- A keepdims column broadcast back over the row: entry (o, d) reads (o, 0). -/
theorem col_idx (o d : Fin 2048) : idx_main_v18 (ix2 o d) = ix2 o (0 : Fin 1) :=
  funext fun a => Fin.ext (by match a with | ⟨0, _⟩ => rfl | ⟨1, _⟩ => rfl)

theorem rowSum_idx21 (o k : Fin 2048) : idx_main_v21 (idx_main_v22 (ix2 o (0 : Fin 1))) k = ix2 o k :=
  funext fun a => Fin.ext (by match a with | ⟨0, _⟩ => rfl | ⟨1, _⟩ => rfl)
theorem rowSum_idx36 (o k : Fin 2048) : idx_main_v36 (idx_main_v37 (ix2 o (0 : Fin 1))) k = ix2 o k :=
  funext fun a => Fin.ext (by match a with | ⟨0, _⟩ => rfl | ⟨1, _⟩ => rfl)
theorem rowSum_idx38 (o k : Fin 2048) : idx_main_v38 (idx_main_v39 (ix2 o (0 : Fin 1))) k = ix2 o k :=
  funext fun a => Fin.ext (by match a with | ⟨0, _⟩ => rfl | ⟨1, _⟩ => rfl)
theorem col_idx27 (o d : Fin 2048) : idx_main_v27 (ix2 o d) = ix2 o (0 : Fin 1) :=
  funext fun a => Fin.ext (by match a with | ⟨0, _⟩ => rfl | ⟨1, _⟩ => rfl)
theorem col_idx42 (o d : Fin 2048) : idx_main_v42 (ix2 o d) = ix2 o (0 : Fin 1) :=
  funext fun a => Fin.ext (by match a with | ⟨0, _⟩ => rfl | ⟨1, _⟩ => rfl)

/-! ## The weight row, stage by stage -/

section weight
variable (x1 : S2048x2048.Idx → EReal) (o : Fin 2048)

/-- The mean of row o. -/
theorem mean_apply :
    val_main_v17 (F := Ideal) x1 (ix2 o (0 : Fin 1)) = rowMean (fun k => x1 (ix2 o k)) := by
  rw [val_main_v17_apply, val_main_v15_apply, val_main_v14_apply, val_main_v16_apply, val_main_cst_4_apply,
    val_main_cst_3_apply]
  simp only [rowSum_idx, Ideal.hostDivf_def, Ideal.ofBits_def, Ideal.ofBits_zero_f32, zero_add]
  rfl

/-- The centred entry (o, d). -/
theorem centred_apply (d : Fin 2048) :
    val_main_v19 (F := Ideal) x1 (ix2 o d) = centred (fun k => x1 (ix2 o k)) d := by
  rw [val_main_v19_apply, val_main_v18_apply, col_idx, mean_apply]
  rfl

/-- Its magnitude. -/
theorem absC_apply (d : Fin 2048) :
    val_main_v20 (F := Ideal) x1 (ix2 o d) = absC (fun k => x1 (ix2 o k)) d := by
  rw [val_main_v20_apply, centred_apply]
  rfl

/-- The threshold of row o: 0.05 times the mean magnitude of the centred row. -/
theorem thresh_apply :
    val_main_v26 (F := Ideal) x1 (ix2 o (0 : Fin 1)) = thresh (fun k => x1 (ix2 o k)) := by
  rw [val_main_v26_apply, val_main_v25_apply, val_main_cst_7_apply, val_main_v24_apply, val_main_v22_apply,
    val_main_v21_apply, val_main_v23_apply, val_main_cst_6_apply, val_main_cst_5_apply]
  simp only [rowSum_idx21, absC_apply, Ideal.mulf_def, Ideal.hostDivf_def, Ideal.ofBits_def, Ideal.ofBits_zero_f32,
    zero_add]
  rfl

/-- The code of entry (o, d): 0 below the threshold, the sign of the centred entry otherwise. -/
theorem code_apply (d : Fin 2048) :
    val_main_v31 (F := Ideal) x1 (ix2 o d) = code (fun k => x1 (ix2 o k)) d := by
  rw [val_main_v31_apply, val_main_v28_apply, val_main_v29_apply, val_main_cst_8_apply, val_main_v30_apply,
    val_main_v27_apply, col_idx27, thresh_apply, absC_apply, centred_apply]
  exact (select_olt _ _ _ _).trans (by
    simp only [Ideal.ofBits_def, Ideal.ofBits_zero_f32, Ideal.hostUnary_sign_def]; rfl)

/-- 1 where the code is not 0. -/
theorem nz_apply (d : Fin 2048) :
    val_main_v34 (F := Ideal) x1 (ix2 o d) = nz (fun k => x1 (ix2 o k)) d := by
  rw [val_main_v34_apply, val_main_v33_apply, val_main_v32_apply, val_main_cst_9_apply, code_apply]
  exact hnz_eq _

/-- The magnitude kept where the code is not 0. -/
theorem kept_apply (d : Fin 2048) :
    val_main_v35 (F := Ideal) x1 (ix2 o d)
      = absC (fun k => x1 (ix2 o k)) d * nz (fun k => x1 (ix2 o k)) d := by
  rw [val_main_v35_apply, absC_apply, nz_apply]
  rfl

/-- The scale of row o. -/
theorem alpha_apply :
    val_main_v41 (F := Ideal) x1 (ix2 o (0 : Fin 1)) = alpha (fun k => x1 (ix2 o k)) := by
  rw [val_main_v41_apply, val_main_v37_apply, val_main_v36_apply, val_main_cst_10_apply, val_main_v40_apply,
    val_main_call2_v1_apply, val_main_call2_v0_apply, val_main_cst_12_apply, val_main_v39_apply, val_main_v38_apply,
    val_main_cst_11_apply]
  simp only [rowSum_idx36, rowSum_idx38, kept_apply, nz_apply, Ideal.hostDivf_def, Ideal.maximumf_def, Ideal.ofBits_def,
    Ideal.ofBits_zero_f32, zero_add, ofBits_one]
  rfl

/-- The weight the product uses: w + (alpha · code − w). -/
theorem wgt_apply (d : Fin 2048) :
    val_main_v45 (F := Ideal) x1 (ix2 o d) = wgtR (fun k => x1 (ix2 o k)) d := by
  rw [val_main_v45_apply, val_main_v44_apply, val_main_v43_apply, val_main_v42_apply, col_idx42, alpha_apply,
    code_apply]
  rfl

end weight

/-! ## The activation row -/

section activation
variable (x0 : S4x4096x2048.Idx → EReal) (bb : Fin 4) (s : Fin 4096)

/-- The sums over the last axis, read in the keepdims column (bb, s, 0), run over the entries (bb, s, k). -/
theorem actSum_idx (k : Fin 2048) : idx_main_v1 (idx_main_v2 (ix3 bb s (0 : Fin 1))) k = ix3 bb s k :=
  funext fun a => Fin.ext (by match a with | ⟨0, _⟩ => rfl | ⟨1, _⟩ => rfl | ⟨2, _⟩ => rfl)

/-- The keepdims column broadcast back over the row: entry (bb, s, d) reads (bb, s, 0). -/
theorem actCol_idx (d : Fin 2048) : idx_main_v7 (ix3 bb s d) = ix3 bb s (0 : Fin 1) :=
  funext fun a => Fin.ext (by match a with | ⟨0, _⟩ => rfl | ⟨1, _⟩ => rfl | ⟨2, _⟩ => rfl)

/-- The activation threshold of row (bb, s): 0 times the mean magnitude of the row. -/
theorem actThresh_apply :
    val_main_v6 (F := Ideal) x0 (ix3 bb s (0 : Fin 1))
      = 0 * Ideal.div (∑ k, max (x0 (ix3 bb s k)) (-(x0 (ix3 bb s k)))) w2048 := by
  rw [val_main_v6_apply, val_main_v5_apply, val_main_cst_1_apply, val_main_v4_apply, val_main_v2_apply,
    val_main_v1_apply, val_main_v3_apply, val_main_cst_0_apply, val_main_cst_apply]
  simp only [actSum_idx, val_main_v0_apply, Ideal.mulf_def, Ideal.hostDivf_def, Ideal.ofBits_def,
    Ideal.ofBits_zero_f32, zero_add]
  rfl

/-- The activation the product uses: x + (t − x), t the sign of x unless its magnitude is below the threshold. -/
theorem act_apply (d : Fin 2048) :
    val_main_v13 (F := Ideal) x0 (ix3 bb s d) = actR (fun k => x0 (ix3 bb s k)) d := by
  rw [val_main_v13_apply, val_main_v12_apply, val_main_v11_apply, val_main_v8_apply, val_main_v9_apply,
    val_main_cst_2_apply, val_main_v10_apply, val_main_v7_apply, actCol_idx, actThresh_apply, val_main_v0_apply]
  refine congrArg (fun t => x0 (ix3 bb s d) + (t - x0 (ix3 bb s d))) ((select_olt _ _ _ _).trans ?_)
  simp only [Ideal.ofBits_def, Ideal.ofBits_zero_f32, Ideal.hostUnary_sign_def]
  rfl

end activation

/-! ## The product and the bias -/

/-- The contraction at (bb, s, o) pairs the activation entry (bb, s, k) with the weight entry (o, k). -/
theorem lhs_idx (bb : Fin 4) (s : Fin 4096) (o k : Fin 2048) : lidx_main_v46 (ix3 bb s o) k = ix3 bb s k :=
  funext fun a => Fin.ext (by match a with | ⟨0, _⟩ => rfl | ⟨1, _⟩ => rfl | ⟨2, _⟩ => rfl)
theorem rhs_idx (bb : Fin 4) (s : Fin 4096) (o k : Fin 2048) : ridx_main_v46 (ix3 bb s o) k = ix2 o k :=
  funext fun a => Fin.ext (by match a with | ⟨0, _⟩ => rfl | ⟨1, _⟩ => rfl)
/-- The bias broadcast over the leading axes: entry (bb, s, o) reads entry o. -/
theorem bias_idx (bb : Fin 4) (s : Fin 4096) (o : Fin 2048) : idx_main_v47 (idx_main_v48 (ix3 bb s o)) = ix1 o :=
  funext fun a => Fin.ext (by match a with | ⟨0, _⟩ => rfl)

/-- The program's result at (bb, s, o): the sum over the positions of the activation row (bb, s) against the
    weight row o, plus the bias at o. -/
theorem ref_apply (x0 : S4x4096x2048.Idx → EReal) (x1 : S2048x2048.Idx → EReal) (x2 : S2048.Idx → EReal)
    (bb : Fin 4) (s : Fin 4096) (o : Fin 2048) :
    val_main_v49 (F := Ideal) x0 x1 x2 (ix3 bb s o)
      = Cert.Ternary.outR (fun k => x0 (ix3 bb s k)) (fun k => x1 (ix2 o k)) (x2 (ix1 o)) := by
  rw [val_main_v49_apply, val_main_v46_apply, val_main_v48_apply, val_main_v47_apply, bias_idx]
  simp only [lhs_idx, rhs_idx, act_apply, wgt_apply]
  rfl

end Cert.ReferenceIdeal.RefValue

end
-- ==== Proof.Algebra.lean ====
/-
  The law that joins the two spellings of the ternary linear layer (Spec.lean): on finite entries
  outR = outK.

  Three facts carry it. (1) For a real x, x + (t − x) = t, and |x| < 0·(anything) never holds, so the
  activation x + (select − x) is sign x. (2) For a real w, w + (y − w) = y, so the weight w + (alpha·code − w)
  is alpha·code. (3) A row of reals has a real mean, real centred entries and magnitudes, codes in {−1, 0, 1},
  a nonzero mask in {0, 1}, and a real scale alpha (its denominator is at least 1); with everything real,
  ∑ s·(alpha·c) = (∑ s·c)·alpha is the distributive law of ℝ. On the extended reals the last step needs the
  finiteness: distributivity fails at the infinities.
-/
import proofs.«151585_j16484084483391_2_alg».proof.Proof.Spec

noncomputable section

namespace Cert.Ternary

open Idealize.ShloMosaic
open scoped BigOperators

/-- An extended real that is a real number. -/
def IsReal (x : EReal) : Prop := ∃ a : ℝ, x = (a : EReal)

/-- The coercion of reals commutes with finite sums. -/
theorem coe_sum {ι : Type} (s : Finset ι) (f : ι → ℝ) :
    (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

theorem isReal_zero : IsReal 0 := ⟨0, EReal.coe_zero.symm⟩
theorem isReal_one : IsReal 1 := ⟨1, EReal.coe_one.symm⟩
theorem isReal_sum {f : Fin 2048 → EReal} (h : ∀ k, IsReal (f k)) : IsReal (∑ k, f k) := by
  choose g hg using h
  exact ⟨∑ k, g k, by rw [← coe_sum]; exact Finset.sum_congr rfl fun k _ => hg k⟩
theorem isReal_sub {x y : EReal} (hx : IsReal x) (hy : IsReal y) : IsReal (x - y) := by
  obtain ⟨a, rfl⟩ := hx; obtain ⟨b, rfl⟩ := hy; exact ⟨a - b, (EReal.coe_sub a b).symm⟩
theorem isReal_mul {x y : EReal} (hx : IsReal x) (hy : IsReal y) : IsReal (x * y) := by
  obtain ⟨a, rfl⟩ := hx; obtain ⟨b, rfl⟩ := hy; exact ⟨a * b, (EReal.coe_mul a b).symm⟩
theorem isReal_neg {x : EReal} (hx : IsReal x) : IsReal (-x) := by
  obtain ⟨a, rfl⟩ := hx; exact ⟨-a, (EReal.coe_neg a).symm⟩
theorem isReal_max {x y : EReal} (hx : IsReal x) (hy : IsReal y) : IsReal (max x y) := by
  obtain ⟨a, rfl⟩ := hx; obtain ⟨b, rfl⟩ := hy; exact ⟨max a b, (EReal.coe_strictMono.monotone.map_max (a := a) (b := b)).symm⟩
/-- A real over a nonzero real is a real. -/
theorem isReal_div {x y : EReal} (hx : IsReal x) {b : ℝ} (hy : y = (b : EReal)) (hb : b ≠ 0) : IsReal (Ideal.div x y) := by
  obtain ⟨a, rfl⟩ := hx
  rw [hy, Ideal.div_coe hb]
  exact ⟨a * (1 / b), (EReal.coe_mul a (1 / b)).symm⟩
/-- The sign is −1, 0 or 1: always a real. -/
theorem isReal_sign (x : EReal) : IsReal (Ideal.sign x) := by
  induction x using EReal.rec with
  | bot => exact ⟨-1, by rw [Ideal.sign_bot, EReal.coe_neg, EReal.coe_one]⟩
  | top => exact ⟨1, by rw [Ideal.sign_top, EReal.coe_one]⟩
  | coe a => exact ⟨_, Ideal.sign_coe a⟩

section Row
variable (r : Row) (hr : ∀ k, IsReal (r k))
include hr

theorem rowMean_isReal : IsReal (rowMean r) :=
  isReal_div (isReal_sum hr) w2048_eq (by norm_num)
theorem centred_isReal (d : Fin 2048) : IsReal (centred r d) :=
  isReal_sub (hr d) (rowMean_isReal r hr)
theorem absC_isReal (d : Fin 2048) : IsReal (absC r d) :=
  isReal_max (centred_isReal r hr d) (isReal_neg (centred_isReal r hr d))
omit hr in
theorem code_isReal (d : Fin 2048) : IsReal (code r d) := by
  unfold code; split
  · exact isReal_zero
  · exact isReal_sign _
omit hr in
theorem nz_isReal (d : Fin 2048) : IsReal (nz r d) := by
  unfold nz; split
  · exact isReal_zero
  · exact isReal_one
theorem alpha_isReal : IsReal (alpha r) := by
  unfold alpha
  obtain ⟨n, hn⟩ := isReal_sum (fun k => nz_isReal r k)
  refine isReal_div (isReal_sum fun k => isReal_mul (absC_isReal r hr k) (nz_isReal r k)) (b := max 1 n) ?_ ?_
  · rw [hn, EReal.coe_strictMono.monotone.map_max, EReal.coe_one]
  · exact (lt_of_lt_of_le one_pos (le_max_left 1 n)).ne'

end Row

/-- The magnitude max x (−x) is never negative. -/
theorem abs_nonneg' (x : EReal) : 0 ≤ max x (-x) := by
  rcases le_total 0 x with h | h
  · exact le_max_of_le_left h
  · exact le_max_of_le_right (by rw [EReal.le_neg]; simpa using h)

/-- The activation x + (select − x) is the sign of x when x is real: the comparison against 0 times the mean never
    holds, and x + (t − x) = t. -/
theorem actR_eq (xr : Row) (d : Fin 2048) (hx : IsReal (xr d)) : actR xr d = Ideal.sign (xr d) := by
  unfold actR
  rw [zero_mul, if_neg (not_lt.mpr (abs_nonneg' _))]
  obtain ⟨a, ha⟩ := hx
  rw [ha, Ideal.sign_coe, ← EReal.coe_sub, ← EReal.coe_add]
  congr 1; ring

/-- The weight w + (alpha·code − w) is alpha·code when w and the product are real. -/
theorem wgtR_eq (r : Row) (hr : ∀ k, IsReal (r k)) (d : Fin 2048) : wgtR r d = alpha r * code r d := by
  unfold wgtR
  obtain ⟨y, hy⟩ := isReal_mul (alpha_isReal r hr) (code_isReal r d)
  obtain ⟨a, ha⟩ := hr d
  rw [hy, ha, ← EReal.coe_sub, ← EReal.coe_add]
  congr 1; ring

/-- THE LAW: on finite entries the two results are one extended real. -/
theorem outR_eq_outK (xr r : Row) (b : EReal) (hx : ∀ k, IsReal (xr k)) (hr : ∀ k, IsReal (r k)) :
    outR xr r b = outK xr r b := by
  unfold outR outK
  obtain ⟨α, hα⟩ := alpha_isReal r hr
  choose c hc using fun k => code_isReal r k
  choose s hs using fun k => isReal_sign (xr k)
  have hL : (∑ k, actR xr k * wgtR r k) = ((∑ k, s k * (α * c k) : ℝ) : EReal) := by
    rw [← coe_sum]
    refine Finset.sum_congr rfl fun k _ => ?_
    rw [actR_eq xr k (hx k), wgtR_eq r hr k, hs k, hα, hc k, ← EReal.coe_mul, ← EReal.coe_mul]
  have hR : (∑ k, Ideal.sign (xr k) * code r k) = ((∑ k, s k * c k : ℝ) : EReal) := by
    rw [← coe_sum]
    refine Finset.sum_congr rfl fun k _ => ?_
    rw [hs k, hc k, ← EReal.coe_mul]
  rw [hL, hR, hα, ← EReal.coe_mul]
  congr 2
  rw [Finset.sum_mul]
  exact Finset.sum_congr rfl fun k _ => by ring

end Cert.Ternary

end
-- ==== Proof.Finite.lean ====
/-
  Every input entry is a real number under the precondition.

  The precondition says, for each of the three argument arrays, that every entry's magnitude is below +∞, as one
  conjunction of three "for all" reductions. A conjunction of bits is 1 only if each is; a reduction by "and" into a
  single result is 1 only if every element is; and an extended real whose magnitude max x (−x) is below +∞ is neither
  +∞ nor −∞, so it is a real.
-/
import proofs.«151585_j16484084483391_2_alg».proof.Pre_finite_inputs
import proofs.«151585_j16484084483391_2_alg».proof.Proof.Algebra
import Idealize.ShloMosaic.Lib.ReduceAll
import Idealize.ShloMosaic.Lib.ValueIdx

noncomputable section

namespace Cert.Ternary

open Idealize.ShloMosaic Cert.Pre_finite_inputs

/-- The rank-0 shape has one index. -/
instance : Subsingleton S_.Idx := ⟨fun a b => funext fun d => d.elim0⟩

/-- The pattern of +∞ denotes the top element. -/
theorem ofBits_inf : Ideal.ofBits .f32 0x7F800000#32 = ⊤ := by
  simp [Ideal.ofBits, Ideal.ieee]

/-- An entry whose magnitude is below +∞ is a real. -/
theorem isReal_of_lt (x : EReal) (h : Ideal.cmp .olt (max x (-x)) (Ideal.ofBits .f32 0x7F800000#32) = 1#1) : IsReal x := by
  rw [ofBits_inf] at h
  unfold Ideal.cmp at h
  induction x using EReal.rec with
  | bot => simp at h
  | top => simp at h
  | coe a => exact ⟨a, rfl⟩

/-- Under the precondition every entry of the activations, of the weights and of the bias is a real. -/
theorem finite_of_pre [hP : Cert.Pre_finite_inputs.Facts] (x0 : FVec Ideal S4x4096x2048 .f32) (x1 : FVec Ideal S2048x2048 .f32) (x2 : FVec Ideal S2048 .f32)
    (h : Cert.Pre_finite_inputs.fn (F := Ideal) x0 x1 x2 = fun _ => 1#1) :
    (∀ i, IsReal (x0 i)) ∧ (∀ i, IsReal (x1 i)) ∧ (∀ i, IsReal (x2 i)) := by
  have h0 := congrFun h ValueIdx.ix0
  dsimp only [Cert.Pre_finite_inputs.fn] at h0
  obtain ⟨hab, hc⟩ := IntOp.andi_eq_one.1 (show IntOp.andi _ _ = 1#1 from h0)
  obtain ⟨ha, hb⟩ := IntOp.andi_eq_one.1 (show IntOp.andi _ _ = 1#1 from hab)
  exact ⟨fun i => isReal_of_lt _ (Host.reduce_andi_all _ _ _ _ _ ha i),
    fun i => isReal_of_lt _ (Host.reduce_andi_all _ _ _ _ _ hb i),
    fun i => isReal_of_lt _ (Host.reduce_andi_all _ _ _ _ _ hc i)⟩

end Cert.Ternary

end
-- ==== Proof.lean ====
/-
  The certificate of a linear layer with ternary weights: the kernel program (a weight-quantization region, two host
  re-layouts, a sign-matmul region and a last re-layout) against the plain array program.

  Frames: the two kernel programs' are the generated frame certificates; the array program's is its generated run with
  the result dropped. The idealization's two rewrites are both the sign-bit rule: 1.0 with an entry's sign bit is −1 below
  zero and 1 otherwise. The value claim: the kernel program's result array at (b, s, o) is outK of activation row (b, s),
  weight row o and bias o (the two regions' arrays read through the host re-layouts); the array program's is outR of the
  same rows; and on finite entries — which the precondition gives — outR = outK.
-/
import proofs.«151585_j16484084483391_2_alg».proof.Defs
import proofs.«151585_j16484084483391_2_alg».proof.Proof.Gen.Kernel
import proofs.«151585_j16484084483391_2_alg».proof.Proof.Gen.Kernel.Skeleton
import proofs.«151585_j16484084483391_2_alg».proof.Proof.Gen.Kernel.Launch
import proofs.«151585_j16484084483391_2_alg».proof.Proof.Gen.Kernel.Points
import proofs.«151585_j16484084483391_2_alg».proof.Proof.Gen.Kernel.Frame
import proofs.«151585_j16484084483391_2_alg».proof.Proof.Gen.KernelIdeal
import proofs.«151585_j16484084483391_2_alg».proof.Proof.Gen.KernelIdeal.Skeleton
import proofs.«151585_j16484084483391_2_alg».proof.Proof.Gen.KernelIdeal.Launch
import proofs.«151585_j16484084483391_2_alg».proof.Proof.Gen.KernelIdeal.Points
import proofs.«151585_j16484084483391_2_alg».proof.Proof.Gen.KernelIdeal.Frame
import proofs.«151585_j16484084483391_2_alg».proof.Proof.Gen.ReferenceIdeal
import proofs.«151585_j16484084483391_2_alg».proof.Proof.Gen.ReferenceIdeal.Run
import proofs.«151585_j16484084483391_2_alg».proof.Proof.Gen.ReferenceIdeal.Read
import proofs.«151585_j16484084483391_2_alg».proof.Proof.Gen.Pre_finite_inputs
import proofs.«151585_j16484084483391_2_alg».proof.Proof.FrameWithResult
import proofs.«151585_j16484084483391_2_alg».proof.Proof.HostReads
import proofs.«151585_j16484084483391_2_alg».proof.Proof.QuantValue
import proofs.«151585_j16484084483391_2_alg».proof.Proof.LinearValue
import proofs.«151585_j16484084483391_2_alg».proof.Proof.KernelValue
import proofs.«151585_j16484084483391_2_alg».proof.Proof.RefValue
import proofs.«151585_j16484084483391_2_alg».proof.Proof.Algebra
import proofs.«151585_j16484084483391_2_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The two rewrites of the idealization, both the sign-bit rule: on the centred weight tile and on the activation tile. -/
theorem preserves : Cert.preserves_Kernel_KernelIdeal :=
  ⟨IdealRules.sign_bit.statement Cert.KernelIdeal.S2048x256 .f32, IdealRules.sign_bit.statement Cert.KernelIdeal.S512x2048 .f32⟩

/-- Both programs end with the same result array: index by index, the kernel program's entry is outK of the rows, the
    array program's outR, and the rows are finite. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Gen.W4 (F := Ideal) m ρ c (Proc.devRef .tc Cert.KernelIdeal.main_v4),
    Cert.KernelIdeal.GenP.frame_with_result m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v49_eq, (hagree c).1, (hagree c).2.1, (hagree c).2.2]
  obtain ⟨h0, h1, h2⟩ := @Cert.Ternary.finite_of_pre Cert.Pre_finite_inputs.Gen.facts _ _ _ (hpre c)
  funext i
  obtain ⟨bb, s, o, rfl⟩ : ∃ (bb : Fin 4) (s : Fin 4096) (o : Fin 2048), i = ix3 bb s o := ⟨i 0, i 1, i 2, eq_ix3 i⟩
  rw [Cert.ReferenceIdeal.RefValue.ref_apply]
  refine ((Cert.Ternary.outR_eq_outK _ _ _ (fun k => h0 _) (fun k => h1 _)).trans ?_)
  exact (Cert.KernelIdeal.KernelValue.result_apply m ρ Cert.KernelIdeal.QuantValue.code_final
    Cert.KernelIdeal.QuantValue.alpha_final Cert.KernelIdeal.LinearValue.out_final c bb s o).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
